-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x32x64 : Shape := ⟨3, ![50000, 32, 64]⟩
abbrev S50000x32 : Shape := ⟨2, ![50000, 32]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x32x64 : S_.BroadcastsInDim S50000x32x64 (![] : Fin 0 → Fin S50000x32x64.rank)
  reducesTo_S50000x32x64_S_d0_1_2 : S50000x32x64.ReducesTo [0, 1, 2] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : FVec F S50000x32x64 .f32) (main_arg2 : IVec S50000x32 32) (main_arg3 : FVec F S64x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x32x64 .f32 := Host.absf main_arg1
  let main_cst_0 : FVec F S_ .f32 := constant S_ .f32 0x7F800000#32
  let main_v5 : FVec F S50000x32x64 .f32 := broadcastInDim S50000x32x64 ![] bcast_S_S50000x32x64 main_cst_0
  let main_v6 : IVec S50000x32x64 1 := cmpf .olt main_v4 main_v5
  let main_c_1 : IVec S_ 1 := constantI S_ 1 1#1
  let main_v7 : IVec S_ 1 := (fun x v => Host.reduce IntOp.andi x v reducesTo_S50000x32x64_S_d0_1_2 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S50000x32x64 : Shape := ⟨3, ![50000, 32, 64]⟩
abbrev S50000x32 : Shape := ⟨2, ![50000, 32]⟩
abbrev S64x128 : Shape := ⟨2, ![64, 128]⟩
abbrev S128 : Shape := ⟨1, ![128]⟩
abbrev S128x128 : Shape := ⟨2, ![128, 128]⟩
abbrev S_ : Shape := ⟨0, ![]⟩
abbrev S50000x32x1 : Shape := ⟨3, ![50000, 32, 1]⟩
abbrev S50000x32x128 : Shape := ⟨3, ![50000, 32, 128]⟩
abbrev S200x32x64 : Shape := ⟨3, ![200, 32, 64]⟩
abbrev S200x32x128 : Shape := ⟨3, ![200, 32, 128]⟩
abbrev S200x128 : Shape := ⟨2, ![200, 128]⟩
abbrev S6400x64 : Shape := ⟨2, ![6400, 64]⟩
abbrev S6400x128 : Shape := ⟨2, ![6400, 128]⟩
abbrev S1x128 : Shape := ⟨2, ![1, 128]⟩

abbrev nBuf : Space → Nat
  | .hbm => 22
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S50000x32x64, .f32⟩
  | .hbm, ⟨2, _⟩ => ⟨S50000x32, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S50000x128, .bf16⟩
  | .hbm, ⟨12, _⟩ => ⟨S_, .i32⟩
  | .hbm, ⟨13, _⟩ => ⟨S50000x32, .i32⟩
  | .hbm, ⟨14, _⟩ => ⟨S50000x32, .i1⟩
  | .hbm, ⟨15, _⟩ => ⟨S_, .i32⟩
  | .hbm, ⟨16, _⟩ => ⟨S50000x32, .i32⟩
  | .hbm, ⟨17, _⟩ => ⟨S50000x32, .i32⟩
  | .hbm, ⟨18, _⟩ => ⟨S50000x32, .i32⟩
  | .hbm, ⟨19, _⟩ => ⟨S50000x32x1, .i32⟩
  | .hbm, ⟨20, _⟩ => ⟨S50000x32x128, .bf16⟩
  | .hbm, ⟨21, _⟩ => ⟨S50000x128, .f32⟩
  | .local _ .vmem, ⟨0, _⟩ => ⟨S200x32x64, .f32⟩
  | .local _ .vmem, ⟨1, _⟩ => ⟨S200x32x64, .f32⟩
  | .local _ .vmem, ⟨2, _⟩ => ⟨S200x32x128, .bf16⟩
  | .local _ .vmem, ⟨3, _⟩ => ⟨S200x32x128, .bf16⟩
  | .local _ .vmem, ⟨4, _⟩ => ⟨S64x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S200x128, .f32⟩
  | .local _ .vmem, ⟨13, _⟩ => ⟨S200x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![250], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S200x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  inb_S200x32x64_S200x32x64_0_0_0 : ∀ a, (![0, 0, 0] : Fin 3 → Nat) a + S200x32x64.size a ≤ S200x32x64.size a
  h_S200x32x64 : 0 < S200x32x64.numel
  shapeCasts_S200x32x64_S6400x64 : S200x32x64.ShapeCasts S6400x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  inb_S128x128_S128x128_0_0 : ∀ a, (![0, 0] : Fin 2 → Nat) a + S128x128.size a ≤ S128x128.size a
  h_S128x128 : 0 < S128x128.numel
  shapeCasts_S6400x128_S200x32x128 : S6400x128.ShapeCasts S200x32x128
  inb_S200x32x128_S200x32x128_0_0_0 : ∀ a, (![0, 0, 0] : Fin 3 → Nat) a + S200x32x128.size a ≤ S200x32x128.size a
  h_S200x32x128 : 0 < S200x32x128.numel
  shapeCasts_S200x32x128_S200x32x128 : S200x32x128.ShapeCasts S200x32x128
  reduces_S200x32x128_S200x128 : S200x32x128.Reduces [1] S200x128
  broadcasts_S1x128_S200x128 : S1x128.Broadcasts S200x128
  inb_S200x128_S200x128_0_0 : ∀ a, (![0, 0] : Fin 2 → Nat) a + S200x128.size a ≤ S200x128.size a
  h_S200x128 : 0 < S200x128.numel
  gather_S50000x128_S50000x32x1_S50000x32x128_2_0_n_n_0_2_1128_wf : GatherDims.WF S50000x128 S50000x32x1 S50000x32x128 [2] [0] [] [0] [] 2 ![1, 128]
  dot_S6400x64_S64x128_S6400x128_1_0_0_1_n_n_wf : DotDims.WF S6400x64 S64x128 S6400x128 [1] [0] [0] [1] [] []
  dot_S6400x128_S128x128_S6400x128_1_0_0_1_n_n_wf : DotDims.WF S6400x128 S128x128 S6400x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x32x64.size a ≤ S50000x32x64.size a
  hwx0_0 : ∀ i : grid0.Coords, EltTy.bits .f32 = 32 ∨ (Rect.block (s := S50000x32x64) S200x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x32x128.size a ≤ S50000x32x128.size a
  hwx0_1 : ∀ i : grid0.Coords, EltTy.bits .bf16 = 32 ∨ (Rect.block (s := S50000x32x128) S200x32x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S200x128.size a ≤ S50000x128.size a
  hwx0_10 : ∀ i : grid0.Coords, EltTy.bits .f32 = 32 ∨ (Rect.block (s := S50000x128) S200x128.size (cc0_transform_10 i) (hinb0_10 i)).WholeWords (EltTy.packing .f32)

variable [Facts₀]

def gather_S50000x128_S50000x32x1_S50000x32x128_2_0_n_n_0_2_1128 : GatherDims S50000x128 S50000x32x1 S50000x32x128 where
  offsetDims := [2]
  collapsedSliceDims := [0]
  operandBatchingDims := []
  startIndicesBatchingDims := []
  startIndexMap := [0]
  indexVectorDim := 2
  sliceSizes := ![1, 128]
  wf := gather_S50000x128_S50000x32x1_S50000x32x128_2_0_n_n_0_2_1128_wf
def dot_S6400x64_S64x128_S6400x128_1_0_0_1_n_n : DotDims S6400x64 S64x128 S6400x128 where
  lhsContracting := [1]
  rhsContracting := [0]
  lhsNonContracting := [0]
  rhsNonContracting := [1]
  lhsBatch := []
  rhsBatch := []
  wf := dot_S6400x64_S64x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S200x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S200x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x32x64 : Shape := ⟨3, ![50000, 32, 64]⟩
abbrev S50000x32 : Shape := ⟨2, ![50000, 32]⟩
abbrev S64x128 : Shape := ⟨2, ![64, 128]⟩
abbrev S128 : Shape := ⟨1, ![128]⟩
abbrev S128x128 : Shape := ⟨2, ![128, 128]⟩
abbrev S_ : Shape := ⟨0, ![]⟩
abbrev S50000x32x1 : Shape := ⟨3, ![50000, 32, 1]⟩
abbrev S50000x32x128 : Shape := ⟨3, ![50000, 32, 128]⟩
abbrev S1x1x128 : Shape := ⟨3, ![1, 1, 128]⟩
abbrev S1x128 : Shape := ⟨2, ![1, 128]⟩

abbrev nBuf : Space → Nat
  | .hbm => 57
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x32x64, .f32⟩
  | .hbm, ⟨2, _⟩ => ⟨S50000x32, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S50000x32, .i32⟩
  | .hbm, ⟨13, _⟩ => ⟨S50000x32, .i1⟩
  | .hbm, ⟨14, _⟩ => ⟨S_, .i32⟩
  | .hbm, ⟨15, _⟩ => ⟨S50000x32, .i32⟩
  | .hbm, ⟨16, _⟩ => ⟨S50000x32, .i32⟩
  | .hbm, ⟨17, _⟩ => ⟨S50000x32, .i32⟩
  | .hbm, ⟨18, _⟩ => ⟨S50000x32x1, .i32⟩
  | .hbm, ⟨19, _⟩ => ⟨S50000x32x128, .f32⟩
  | .hbm, ⟨20, _⟩ => ⟨S50000x32x128, .f32⟩
  | .hbm, ⟨21, _⟩ => ⟨S1x1x128, .f32⟩
  | .hbm, ⟨22, _⟩ => ⟨S50000x32x128, .f32⟩
  | .hbm, ⟨23, _⟩ => ⟨S50000x32x128, .f32⟩
  | .hbm, ⟨24, _⟩ => ⟨S50000x32x128, .f32⟩
  | .hbm, ⟨25, _⟩ => ⟨S50000x32x128, .f32⟩
  | .hbm, ⟨26, _⟩ => ⟨S_, .f32⟩
  | .hbm, ⟨27, _⟩ => ⟨S50000x32x128, .f32⟩
  | .hbm, ⟨28, _⟩ => ⟨S50000x32x128, .f32⟩
  | .hbm, ⟨29, _⟩ => ⟨S_, .f32⟩
  | .hbm, ⟨30, _⟩ => ⟨S50000x32x128, .f32⟩
  | .hbm, ⟨31, _⟩ => ⟨S50000x32x128, .f32⟩
  | .hbm, ⟨32, _⟩ => ⟨S50000x32x128, .f32⟩
  | .hbm, ⟨33, _⟩ => ⟨S50000x32x128, .f32⟩
  | .hbm, ⟨34, _⟩ => ⟨S1x1x128, .f32⟩
  | .hbm, ⟨35, _⟩ => ⟨S50000x32x128, .f32⟩
  | .hbm, ⟨36, _⟩ => ⟨S50000x32x128, .f32⟩
  | .hbm, ⟨37, _⟩ => ⟨S50000x32x128, .f32⟩
  | .hbm, ⟨38, _⟩ => ⟨S_, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩

abbrev nD : Nat := 1
abbrev τ : Topo := Topo.v7x

variable {F : FTy → Type} [FloatOps F]

class Facts₀ : Prop where
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  bcast_S128_S1x1x128_2 : S128.BroadcastsInDim S1x1x128 (![2] : Fin 1 → Fin S1x1x128.rank)
  bcast_S1x1x128_S50000x32x128_0_1_2 : S1x1x128.BroadcastsInDim S50000x32x128 (![0, 1, 2] : Fin 3 → Fin S50000x32x128.rank)
  bcast_S_S50000x32x128 : S_.BroadcastsInDim S50000x32x128 (![] : Fin 0 → Fin S50000x32x128.rank)
  reducesTo_S50000x32x128_S50000x128_d1 : S50000x32x128.ReducesTo [1] S50000x128
  h_S_ : 0 < S_.numel
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x128_S50000x32x1_S50000x32x128_2_0_n_n_0_2_1128_wf : GatherDims.WF S50000x128 S50000x32x1 S50000x32x128 [2] [0] [] [0] [] 2 ![1, 128]
  dot_S50000x32x64_S64x128_S50000x32x128_2_0_01_1_n_n_wf : DotDims.WF S50000x32x64 S64x128 S50000x32x128 [2] [0] [0, 1] [1] [] []
  dot_S50000x32x128_S128x128_S50000x32x128_2_0_01_1_n_n_wf : DotDims.WF S50000x32x128 S128x128 S50000x32x128 [2] [0] [0, 1] [1] [] []
  dot_S50000x128_S128x128_S50000x128_1_0_0_1_n_n_wf : DotDims.WF S50000x128 S128x128 S50000x128 [1] [0] [0] [1] [] []

variable [Facts₀]

def gather_S50000x128_S50000x32x1_S50000x32x128_2_0_n_n_0_2_1128 : GatherDims S50000x128 S50000x32x1 S50000x32x128 where
  offsetDims := [2]
  collapsedSliceDims := [0]
  operandBatchingDims := []
  startIndicesBatchingDims := []
  startIndexMap := [0]
  indexVectorDim := 2
  sliceSizes := ![1, 128]
  wf := gather_S50000x128_S50000x32x1_S50000x32x128_2_0_n_n_0_2_1128_wf
def dot_S50000x32x64_S64x128_S50000x32x128_2_0_01_1_n_n : DotDims S50000x32x64 S64x128 S50000x32x128 where
  lhsContracting := [2]
  rhsContracting := [0]
  lhsNonContracting := [0, 1]
  rhsNonContracting := [1]
  lhsBatch := []
  rhsBatch := []
  wf := dot_S50000x32x64_S64x128_S50000x32x128_2_0_01_1_n_n_wf
def dot_S50000x32x128_S128x128_S50000x32x128_2_0_01_1_n_n : DotDims S50000x32x128 S128x128 S50000x32x128 where
  lhsContracting := [2]
  rhsContracting := [0]
  lhsNonContracting := [0, 1]
  rhsNonContracting := [1]
  lhsBatch := []
  rhsBatch := []
  wf := dot_S50000x32x128_S128x128_S50000x32x128_2_0_01_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Node.lean ====
/-
  One node of a continuous-filter interaction block, over the extended reals.

  A node has 32 neighbours. Neighbour m comes with a row of 64 edge features e_m and with the 128
  numbers g_m of the neighbouring node's representation. A two-layer filter network turns the edge
  features into a filter of 128 numbers,

      F_m(h) = Σ_k silu (Σ_f e_m(f) · W₁(f, k) + b₁(k)) · W₂(k, h) + b₂(h),      silu z = z · logistic z,

  the node's message is the filter-weighted sum of its neighbours, msg(h) = Σ_m g_m(h) · F_m(h), and a
  two-layer update network turns the message into the node's output row,

      out(j) = Σ_k silu (Σ_h msg(h) · U₁(h, k) + c₁(k)) · U₂(k, j) + c₂(j).

  Every sum is a finite sum of extended reals, in the order of its index type; nothing below asks a
  summand to be finite. The output row of node n reads only row n of the edge-feature array and row n of
  the gathered array, so a block of rows of the output is the same function of the matching block of rows
  of those two arrays: `rows` states the array form for any number R of rows, and `rows_of_rows` is
  that remark for a block of B rows starting at row o.
-/
import Idealize.ShloMosaic.PureOps.Ideal
import Idealize.ShloMosaic.Lib.ValueIdx

noncomputable section

open scoped BigOperators

namespace Cert.Interaction

open Idealize.ShloMosaic Idealize.ShloMosaic.ValueIdx

/-- z · logistic z on the extended reals. -/
def silu (z : EReal) : EReal := z * Ideal.logistic z

/-- One output of an affine layer: Σ_k a(k) · w(k, j) + b(j). -/
def affine {K N : Nat} (a : Fin K → EReal) (w : (⟨2, ![K, N]⟩ : Shape).Idx → EReal)
    (b : (⟨1, ![N]⟩ : Shape).Idx → EReal) (j : Fin N) : EReal :=
  (∑ k : Fin K, a k * w (ix2 k j)) + b (ix1 j)

/-- The filter of one neighbour from its edge features: affine, silu, affine. -/
def filter (e : Fin 64 → EReal) (w1 : (⟨2, ![64, 128]⟩ : Shape).Idx → EReal) (b1 : (⟨1, ![128]⟩ : Shape).Idx → EReal)
    (w2 : (⟨2, ![128, 128]⟩ : Shape).Idx → EReal) (b2 : (⟨1, ![128]⟩ : Shape).Idx → EReal) (h : Fin 128) : EReal :=
  affine (fun k => silu (affine e w1 b1 k)) w2 b2 h

/-- The node's message: the neighbours' representations weighted by their filters, summed over the 32 neighbours. -/
def message (e : Fin 32 → Fin 64 → EReal) (g : Fin 32 → Fin 128 → EReal)
    (w1 : (⟨2, ![64, 128]⟩ : Shape).Idx → EReal) (b1 : (⟨1, ![128]⟩ : Shape).Idx → EReal)
    (w2 : (⟨2, ![128, 128]⟩ : Shape).Idx → EReal) (b2 : (⟨1, ![128]⟩ : Shape).Idx → EReal) (h : Fin 128) : EReal :=
  ∑ mm : Fin 32, g mm h * filter (e mm) w1 b1 w2 b2 h

/-- The node's output row: the update network (affine, silu, affine) of its message. -/
def node (e : Fin 32 → Fin 64 → EReal) (g : Fin 32 → Fin 128 → EReal)
    (w1 : (⟨2, ![64, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (u1 : (⟨2, ![128, 128]⟩ : Shape).Idx → EReal) (c1 : (⟨1, ![128]⟩ : Shape).Idx → EReal)
    (u2 : (⟨2, ![128, 128]⟩ : Shape).Idx → EReal) (c2 : (⟨1, ![128]⟩ : Shape).Idx → EReal) (j : Fin 128) : EReal :=
  affine (fun k => silu (affine (message e g w1 b1 w2 b2) u1 c1 k)) u2 c2 j

/-- R nodes at once: entry (n, j) of the output is node n's output j, from row n of the edge features `x` and row n
    of the gathered representations `nb`. -/
def rows {R : Nat} (x : (⟨3, ![R, 32, 64]⟩ : Shape).Idx → EReal) (nb : (⟨3, ![R, 32, 128]⟩ : Shape).Idx → EReal)
    (w1 : (⟨2, ![64, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (u1 : (⟨2, ![128, 128]⟩ : Shape).Idx → EReal) (c1 : (⟨1, ![128]⟩ : Shape).Idx → EReal)
    (u2 : (⟨2, ![128, 128]⟩ : Shape).Idx → EReal) (c2 : (⟨1, ![128]⟩ : Shape).Idx → EReal) :
    (⟨2, ![R, 128]⟩ : Shape).Idx → EReal :=
  fun i => node (fun mm f => x (ix3 (i 0) mm f)) (fun mm h => nb (ix3 (i 0) mm h)) w1 b1 w2 b2 u1 c1 u2 c2 (i 1)

/-- A block of rows of the output is the output of the matching block of rows of the two per-node arrays: if the
    block arrays `xb`, `nbb` hold, at row p, row n of the whole arrays `x`, `nb`, then entry (p, j) of the block's
    output is entry (n, j) of the whole output. -/
theorem rows_of_rows {R B : Nat} (x : (⟨3, ![R, 32, 64]⟩ : Shape).Idx → EReal) (nb : (⟨3, ![R, 32, 128]⟩ : Shape).Idx → EReal)
    (xb : (⟨3, ![B, 32, 64]⟩ : Shape).Idx → EReal) (nbb : (⟨3, ![B, 32, 128]⟩ : Shape).Idx → EReal)
    (w1 : (⟨2, ![64, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (u1 : (⟨2, ![128, 128]⟩ : Shape).Idx → EReal) (c1 : (⟨1, ![128]⟩ : Shape).Idx → EReal)
    (u2 : (⟨2, ![128, 128]⟩ : Shape).Idx → EReal) (c2 : (⟨1, ![128]⟩ : Shape).Idx → EReal)
    (p : Fin B) (n : Fin R) (j : Fin 128)
    (hx : ∀ (mm : Fin 32) (f : Fin 64), xb (ix3 p mm f) = x (ix3 n mm f))
    (hnb : ∀ (mm : Fin 32) (h : Fin 128), nbb (ix3 p mm h) = nb (ix3 n mm h)) :
    rows xb nbb w1 b1 w2 b2 u1 c1 u2 c2 (ix2 p j) = rows x nb w1 b1 w2 b2 u1 c1 u2 c2 (ix2 n j) := by
  show node (fun mm f => xb (ix3 p mm f)) (fun mm h => nbb (ix3 p mm h)) w1 b1 w2 b2 u1 c1 u2 c2 j
      = node (fun mm f => x (ix3 n mm f)) (fun mm h => nb (ix3 n mm h)) w1 b1 w2 b2 u1 c1 u2 c2 j
  rw [show (fun mm f => xb (ix3 p mm f)) = (fun mm f => x (ix3 n mm f)) from funext fun mm => funext fun f => hx mm f,
    show (fun mm h => nbb (ix3 p mm h)) = (fun mm h => nb (ix3 n mm h)) from funext fun mm => funext fun h => hnb mm h]

end Cert.Interaction

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibAffineRow.lean ====
/-
  An affine layer as vector operations compute it, read at an index, over the extended reals.

  For an M × K matrix `a`, a K × N weight matrix `w` and a bias `b` of N numbers, the layer is the plain product of
  `a` with `w` (a `tpu.matmul` into the zero accumulator, the weights passed through a change of float format, which
  is the identity on extended reals) plus the bias viewed as one row [1, N] and spread over the M rows. At (r, j) that
  is Σ_k a(r, k) · w(k, j) + b(j), for any extents M, K, N.
-/
import Idealize.ShloMosaic.Lib.ValueIdx
import Idealize.ShloMosaic.Lib.ValueLayout
import Idealize.ShloMosaic.Lib.Pipeline.Value
import Idealize.ShloMosaic.PureOps.Ideal.Laws
import proofs.«155892_j30107720745193_2_alg».proof.Proof.LibPlainDot

noncomputable section

open scoped BigOperators

namespace Idealize.ShloMosaic.AffineRow

open Idealize.ShloMosaic Idealize.ShloMosaic.ValueIdx

variable {M K N : Nat}

/-- A vector of N numbers viewed as one row [1, N], read at (0, j), is its entry j: both sit at row-major position j. -/
theorem oneRow_apply {α : Type} (b : (⟨1, ![N]⟩ : Shape).Idx → α) (h : (⟨1, ![N]⟩ : Shape).ShapeCasts ⟨2, ![1, N]⟩) (j : Fin N) :
    shapeCast ⟨2, ![1, N]⟩ b h (ix2 (0 : Fin 1) j) = b (ix1 j) :=
  shapeCast_apply b h (ix2 (0 : Fin 1) j) (ix1 j) (by
    rw [Shape.rowMajor_val_one, Shape.rowMajor_val_two]
    show j.val = 0 * N + j.val
    rw [Nat.zero_mul, Nat.zero_add])

/-- The bias row spread over M rows, at (r, j), is the bias's entry j. -/
theorem biasRows_apply {α : Type} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (j : Fin N) :
    broadcastTo ⟨2, ![M, N]⟩ (shapeCast ⟨2, ![1, N]⟩ b h1) h2 (ix2 r j) = b (ix1 j) :=
  (broadcastTo_1b_ab_apply _ h2 r j).trans (oneRow_apply b h1 j)

/-- The layer at (r, j): Σ_k a(r, k) · w(k, j) + b(j). -/
theorem layer_apply {φ : FTy} (prec : Option ContractPrecision) (a : FVec Ideal ⟨2, ![M, K]⟩ φ)
    (w : FVec Ideal ⟨2, ![K, N]⟩ .f32) (hw : FTy.bf16.bits < FTy.f32.bits) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (r : Fin M) (j : Fin N) :
    addf (matmul (DotDims.plain M K N) prec a (truncf .bf16 w hw) (constant ⟨2, ![M, N]⟩ .f32 0x00000000#32))
        (broadcastTo ⟨2, ![M, N]⟩ (shapeCast ⟨2, ![1, N]⟩ b h1) h2) (ix2 r j)
      = (∑ k : Fin K, a (ix2 r k) * w (ix2 k j)) + b (ix1 j) := by
  rw [addf_apply, biasRows_apply]
  exact congrArg (· + b (ix1 j)) (PlainDot.matmul_zero_apply prec a (truncf .bf16 w hw) r j)

end Idealize.ShloMosaic.AffineRow

end
-- ==== Proof.LibMidSum.lean ====
/-
  The sum over the middle axis of a three-axis array, read at an index, over the extended reals.

  For an a × s × b array, a vector reduction with an add body over axis 1 from the neutral accumulator is, at
  (p, q), the sum over the s middle coordinates k of the entries (p, k, q).
-/
import Idealize.ShloMosaic.Lib.ValueIdx
import Idealize.ShloMosaic.PureOps.Ideal.Laws
import Idealize.ShloMosaic.PureOps.Reduce

noncomputable section

open scoped BigOperators

namespace Idealize.ShloMosaic.MidSum

open Idealize.ShloMosaic Idealize.ShloMosaic.ValueIdx

variable {a s b : Nat}

/-- The kept coordinates (p, q) with the middle coordinate k put back are (p, k, q). -/
theorem lift_mid (h : (⟨3, ![a, s, b]⟩ : Shape).Reduces [1] (⟨2, ![a, b]⟩ : Shape)) (p : Fin a) (q : Fin b)
    (k : Fin ((⟨3, ![a, s, b]⟩ : Shape).size 1)) : h.lift (ix2 p q) k = ix3 p (⟨k.val, k.isLt⟩ : Fin s) q := by
  funext c; apply Fin.ext
  fin_cases c <;> rfl

/-- A vector reduction's sum over the middle axis. -/
theorem midSum_vector (src : FVec Ideal ⟨3, ![a, s, b]⟩ .f32) (acc : BitVec 32)
    (h : (⟨3, ![a, s, b]⟩ : Shape).Reduces [1] (⟨2, ![a, b]⟩ : Shape)) (hφ : FKind.Formats .f32)
    (hacc : acc = FKind.add.neutral .f32 hφ) (p : Fin a) (q : Fin b) :
    multiReduction .add [1] ⟨2, ![a, b]⟩ src acc h hφ hacc (ix2 p q) = ∑ k : Fin s, src (ix3 p k q) := by
  refine (Ideal.multiReduction_add_single src acc h hφ hacc (ix2 p q)).trans ?_
  exact Finset.sum_congr rfl fun k _ => congrArg src (lift_mid h p q k)

end Idealize.ShloMosaic.MidSum

end
-- ==== Proof.LibFlatten.lean ====
/-
  The leading two axes of a three-axis array merged into one, and split again, read at an index.

  An a × b × c array viewed as n × c with n = a·b has, as its row p·b + q, the row (p, q) of the array; conversely an
  n × c array viewed as a × b × c has at (p, q, k) the entry (p·b + q, k). Both are statements about row-major positions:
  ((p·b + q)·c + k) on both sides.
-/
import Idealize.ShloMosaic.Lib.Pipeline.Value
import Idealize.ShloMosaic.Lib.ValueIdx

noncomputable section

namespace Idealize.ShloMosaic.Flatten

open Idealize.ShloMosaic Idealize.ShloMosaic.ValueIdx

variable {α : Type} {a b c n : Nat}

/-- Rows of the merged view: row p·b + q is the array's row (p, q). -/
theorem merge_apply (x : (⟨3, ![a, b, c]⟩ : Shape).Idx → α) (h : (⟨3, ![a, b, c]⟩ : Shape).ShapeCasts ⟨2, ![n, c]⟩)
    (p : Fin a) (q : Fin b) (k : Fin c) (r : Fin n) (hr : r.val = p.val * b + q.val) :
    shapeCast ⟨2, ![n, c]⟩ x h (ix2 r k) = x (ix3 p q k) :=
  shapeCast_apply x h (ix2 r k) (ix3 p q k) (by
    rw [Shape.rowMajor_val_three, Shape.rowMajor_val_two]
    show (p.val * b + q.val) * c + k.val = r.val * c + k.val
    rw [hr])

/-- Entries of the split view: (p, q, k) is the entry (p·b + q, k). -/
theorem split_apply (y : (⟨2, ![n, c]⟩ : Shape).Idx → α) (h : (⟨2, ![n, c]⟩ : Shape).ShapeCasts ⟨3, ![a, b, c]⟩)
    (p : Fin a) (q : Fin b) (k : Fin c) (r : Fin n) (hr : r.val = p.val * b + q.val) :
    shapeCast ⟨3, ![a, b, c]⟩ y h (ix3 p q k) = y (ix2 r k) :=
  shapeCast_apply y h (ix3 p q k) (ix2 r k) (by
    rw [Shape.rowMajor_val_three, Shape.rowMajor_val_two]
    show r.val * c + k.val = (p.val * b + q.val) * c + k.val
    rw [hr])

end Idealize.ShloMosaic.Flatten

end
-- ==== Proof.KernelBlock.lean ====
/-
  What the kernel's body computes from the blocks it loads, read at an index, over the extended reals.

  At a grid point the body loads a block of 200 rows of the edge features (200 × 32 × 64), the matching 200 rows of
  the gathered neighbour representations (200 × 32 × 128) and the eight weight and bias arrays whole. It flattens
  the 200 × 32 neighbour slots into 6400 rows, runs the filter network on them as two matrix products with a bias
  row and a silu between, unflattens, multiplies by the gathered representations and sums over the 32 neighbours,
  and runs the update network on the 200 messages in the same way. The stages are named below in the form the body
  spells them and each is read at an index:

    hidden row r = 32·p + m, column k :  Σ_f e(p, m, f) · W₁(f, k) + b₁(k)
    filter (p, m, h)                  :  Σ_k silu(hidden(r, k)) · W₂(k, h) + b₂(h)
    message (p, h)                    :  Σ_m g(p, m, h) · filter(p, m, h)
    update (p, k)                     :  Σ_h message(p, h) · U₁(h, k) + c₁(k)
    result (p, j)                     :  Σ_k silu(update(p, k)) · U₂(k, j) + c₂(j)

  which is `Cert.Interaction.rows` of the two loaded blocks at (p, j). Changes of float format are the identity on
  extended reals, a product into the zero accumulator is the plain sum, and row 32·p + m of the flattened view is
  row (p, m): no step needs a finite operand.
-/
import proofs.«155892_j30107720745193_2_alg».proof.Proof.Gen.KernelIdeal.Skeleton
import proofs.«155892_j30107720745193_2_alg».proof.Proof.Node
import proofs.«155892_j30107720745193_2_alg».proof.Proof.LibAffineRow
import proofs.«155892_j30107720745193_2_alg».proof.Proof.LibMidSum
import proofs.«155892_j30107720745193_2_alg».proof.Proof.LibFlatten

set_option maxRecDepth 16384

noncomputable section

open scoped BigOperators

namespace Cert.Interaction.Kernel

open Cert.KernelIdeal Cert.KernelIdeal.Facts₀ Idealize.ShloMosaic Idealize.ShloMosaic.ValueIdx

/-! ## The printed dimension records are the plain M × K by K × N product's -/

theorem dotA : dot_S6400x64_S64x128_S6400x128_1_0_0_1_n_n = DotDims.plain 6400 64 128 := rfl
theorem dotB : dot_S6400x128_S128x128_S6400x128_1_0_0_1_n_n = DotDims.plain 6400 128 128 := rfl
theorem dotC : dot_S200x128_S128x128_S200x128_1_0_0_1_n_n = DotDims.plain 200 128 128 := rfl

/-! ## The stages, as the body spells them -/

variable (x0 : Vec Ideal S200x32x64 .f32) (x1 : Vec Ideal S200x32x128 .bf16)
  (w1 : Vec Ideal S64x128 .f32) (b1 : Vec Ideal S128 .f32) (w2 : Vec Ideal S128x128 .f32) (b2 : Vec Ideal S128 .f32)
  (u1 : Vec Ideal S128x128 .f32) (c1 : Vec Ideal S128 .f32) (u2 : Vec Ideal S128x128 .f32) (c2 : Vec Ideal S128 .f32)

/-- The filter network's first layer on the 6400 flattened neighbour slots. -/
def hidden : FVec Ideal S6400x128 .f32 :=
  addf (matmul dot_S6400x64_S64x128_S6400x128_1_0_0_1_n_n none
      (shapeCast S6400x64 (truncf .bf16 x0 bitsLt_bf16_f32) shapeCasts_S200x32x64_S6400x64)
      (truncf .bf16 w1 bitsLt_bf16_f32) (constant S6400x128 .f32 0x00000000#32))
    (broadcastTo S6400x128 (shapeCast S1x128 b1 shapeCasts_S128_S1x128) broadcasts_S1x128_S6400x128)

/-- The filter network's second layer, unflattened to 200 × 32 × 128. -/
def filt : FVec Ideal S200x32x128 .f32 :=
  shapeCast S200x32x128
    (addf (matmul dot_S6400x128_S128x128_S6400x128_1_0_0_1_n_n none
        (truncf .bf16 (mulf (hidden x0 w1 b1) (logistic (hidden x0 w1 b1))) bitsLt_bf16_f32)
        (truncf .bf16 w2 bitsLt_bf16_f32) (constant S6400x128 .f32 0x00000000#32))
      (broadcastTo S6400x128 (shapeCast S1x128 b2 shapeCasts_S128_S1x128) broadcasts_S1x128_S6400x128))
    shapeCasts_S6400x128_S200x32x128

/-- The filter-weighted sum over the 32 neighbours. -/
def msg : FVec Ideal S200x128 .f32 :=
  multiReduction .add [1] S200x128
    (mulf (extf .f32 (shapeCast S200x32x128 x1 shapeCasts_S200x32x128_S200x32x128) bitsLt_bf16_f32) (filt x0 w1 b1 w2 b2))
    0x00000000#32 reduces_S200x32x128_S200x128 (.inl rfl) rfl

/-- The update network's first layer on the 200 messages. -/
def upd : FVec Ideal S200x128 .f32 :=
  addf (matmul dot_S200x128_S128x128_S200x128_1_0_0_1_n_n none
      (truncf .bf16 (msg x0 x1 w1 b1 w2 b2) bitsLt_bf16_f32) (truncf .bf16 u1 bitsLt_bf16_f32)
      (constant S200x128 .f32 0x00000000#32))
    (broadcastTo S200x128 (shapeCast S1x128 c1 shapeCasts_S128_S1x128) broadcasts_S1x128_S200x128)

/-- The update network's second layer: what the body stores. -/
def result : FVec Ideal S200x128 .f32 :=
  addf (matmul dot_S200x128_S128x128_S200x128_1_0_0_1_n_n none
      (truncf .bf16 (mulf (upd x0 x1 w1 b1 w2 b2 u1 c1) (logistic (upd x0 x1 w1 b1 w2 b2 u1 c1))) bitsLt_bf16_f32)
      (truncf .bf16 u2 bitsLt_bf16_f32) (constant S200x128 .f32 0x00000000#32))
    (broadcastTo S200x128 (shapeCast S1x128 c2 shapeCasts_S128_S1x128) broadcasts_S1x128_S200x128)

/-- The body's stored value is the last stage: the two generated payloads, composed, are these five stages. -/
theorem payload_eq :
    Gen.k0_pay1 (F := Ideal) (Gen.k0_pay2 x0 w1 b1 w2 b2 x1 u1 c1) u2 c2 = result x0 x1 w1 b1 w2 b2 u1 c1 u2 c2 := rfl

/-! ## Each stage at an index -/

/-- Flattened row 32·p + m of the first layer is the affine layer of neighbour slot (p, m)'s edge features. -/
theorem hidden_apply (p : Fin 200) (mm : Fin 32) (r : Fin 6400) (hr : r.val = p.val * 32 + mm.val) (k : Fin 128) :
    hidden x0 w1 b1 (ix2 r k) = affine (fun f => x0 (ix3 p mm f)) w1 b1 k := by
  unfold hidden
  rw [dotA]
  refine (AffineRow.layer_apply none _ w1 bitsLt_bf16_f32 b1 _ _ r k).trans ?_
  unfold affine
  refine congrArg (· + b1 (ix1 k)) (Finset.sum_congr rfl fun f _ => ?_)
  show (shapeCast S6400x64 (truncf (F := Ideal) .bf16 x0 bitsLt_bf16_f32) shapeCasts_S200x32x64_S6400x64 (ix2 r f) : EReal) * w1 (ix2 f k)
      = x0 (ix3 p mm f) * w1 (ix2 f k)
  rw [Flatten.merge_apply (truncf (F := Ideal) .bf16 x0 bitsLt_bf16_f32) shapeCasts_S200x32x64_S6400x64 p mm f r hr]
  rfl

/-- Entry (p, m, h) of the unflattened second layer is neighbour slot (p, m)'s filter at h. -/
theorem filt_apply (p : Fin 200) (mm : Fin 32) (h : Fin 128) :
    filt x0 w1 b1 w2 b2 (ix3 p mm h) = filter (fun f => x0 (ix3 p mm f)) w1 b1 w2 b2 h := by
  have hlt : p.val * 32 + mm.val < 6400 := by have := p.isLt; have := mm.isLt; omega
  unfold filt
  refine (Flatten.split_apply _ shapeCasts_S6400x128_S200x32x128 p mm h ⟨p.val * 32 + mm.val, hlt⟩ rfl).trans ?_
  rw [dotB]
  refine (AffineRow.layer_apply none _ w2 bitsLt_bf16_f32 b2 _ _ ⟨p.val * 32 + mm.val, hlt⟩ h).trans ?_
  unfold filter
  show (∑ k : Fin 128, _ * w2 (ix2 k h)) + b2 (ix1 h) = affine _ w2 b2 h
  unfold affine
  refine congrArg (· + b2 (ix1 h)) (Finset.sum_congr rfl fun k _ => ?_)
  refine congrArg (· * w2 (ix2 k h)) ?_
  show hidden x0 w1 b1 (ix2 ⟨p.val * 32 + mm.val, hlt⟩ k) * Ideal.logistic (hidden x0 w1 b1 (ix2 ⟨p.val * 32 + mm.val, hlt⟩ k)) = silu _
  rw [hidden_apply x0 w1 b1 p mm ⟨p.val * 32 + mm.val, hlt⟩ rfl k]
  rfl

/-- Entry (p, h) of the neighbour sum is node p's message at h. -/
theorem msg_apply (p : Fin 200) (h : Fin 128) :
    msg x0 x1 w1 b1 w2 b2 (ix2 p h)
      = message (fun mm f => x0 (ix3 p mm f)) (fun mm h => x1 (ix3 p mm h)) w1 b1 w2 b2 h := by
  unfold msg
  refine (MidSum.midSum_vector _ _ reduces_S200x32x128_S200x128 (.inl rfl) rfl p h).trans ?_
  unfold message
  refine Finset.sum_congr rfl fun mm _ => ?_
  show shapeCast S200x32x128 x1 shapeCasts_S200x32x128_S200x32x128 (ix3 p mm h) * filt x0 w1 b1 w2 b2 (ix3 p mm h) = _
  rw [shapeCast_self, filt_apply]

/-- Entry (p, k) of the update network's first layer. -/
theorem upd_apply (p : Fin 200) (k : Fin 128) :
    upd x0 x1 w1 b1 w2 b2 u1 c1 (ix2 p k)
      = affine (message (fun mm f => x0 (ix3 p mm f)) (fun mm h => x1 (ix3 p mm h)) w1 b1 w2 b2) u1 c1 k := by
  unfold upd
  rw [dotC]
  refine (AffineRow.layer_apply none _ u1 bitsLt_bf16_f32 c1 _ _ p k).trans ?_
  unfold affine
  refine congrArg (· + c1 (ix1 k)) (Finset.sum_congr rfl fun h _ => ?_)
  exact congrArg (· * u1 (ix2 h k)) (msg_apply x0 x1 w1 b1 w2 b2 p h)

/-- Entry (p, j) of what the body stores is node p's output j, from row p of the two loaded blocks. -/
theorem result_apply (p : Fin 200) (j : Fin 128) :
    result x0 x1 w1 b1 w2 b2 u1 c1 u2 c2 (ix2 p j) = rows x0 x1 w1 b1 w2 b2 u1 c1 u2 c2 (ix2 p j) := by
  unfold result
  rw [dotC]
  refine (AffineRow.layer_apply none _ u2 bitsLt_bf16_f32 c2 _ _ p j).trans ?_
  show _ = node (fun mm f => x0 (ix3 p mm f)) (fun mm h => x1 (ix3 p mm h)) w1 b1 w2 b2 u1 c1 u2 c2 j
  unfold node
  show (∑ k : Fin 128, _ * u2 (ix2 k j)) + c2 (ix1 j) = affine _ u2 c2 j
  unfold affine
  refine congrArg (· + c2 (ix1 j)) (Finset.sum_congr rfl fun k _ => ?_)
  refine congrArg (· * u2 (ix2 k j)) ?_
  show upd x0 x1 w1 b1 w2 b2 u1 c1 (ix2 p k) * Ideal.logistic (upd x0 x1 w1 b1 w2 b2 u1 c1 (ix2 p k)) = silu _
  rw [upd_apply]
  rfl

end Cert.Interaction.Kernel

end
-- ==== Proof.KernelArray.lean ====
/-
  The kernel's result array as one function of the argument arrays.

  The grid has 250 points. Point t reads rows 200·t … 200·t + 199 of the edge features and of the gathered
  representations, reads the eight weight and bias arrays whole, and writes rows 200·t … 200·t + 199 of the result.
  The gathered array is what the host operations before the launch leave: the representation array, passed through a
  change of float format, gathered at the neighbour indices after negative ones are wrapped by the number of nodes.

  What point t writes back is block t of `Cert.Interaction.rows` of the whole arrays: the body's result at (p, j) is
  node output j from row p of its two loaded blocks (the module on the body), and row p of those blocks is row
  200·t + p of the arrays, the weights being the arrays themselves. The 250 blocks of 200 rows cover the 50000 rows
  (row i lies in block i / 200), so the array ends holding that function everywhere.
-/
import proofs.«155892_j30107720745193_2_alg».proof.Proof.Gen.KernelIdeal.Value
import proofs.«155892_j30107720745193_2_alg».proof.Proof.KernelBlock
import Idealize.ShloMosaic.Lib.StableHlo.Run

set_option maxRecDepth 16384

noncomputable section

namespace Cert.Interaction.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The gathered array -/

/-- The gathered representations as the host operations before the launch compute them from the representation
    array `a0` and the neighbour indices `a2`. -/
def gathered (a0 : Vec Ideal S50000x128 .f32) (a2 : Vec Ideal S50000x32 .i32) : Vec Ideal S50000x32x128 .bf16 :=
  Host.gather gather_S50000x128_S50000x32x1_S50000x32x128_2_0_n_n_0_2_1128
    (truncf (F := Ideal) .bf16 a0 Cert.KernelIdeal.Facts₀.bitsLt_bf16_f32)
    (broadcastInDim S50000x32x1 ![0, 1] Cert.KernelIdeal.Facts₀.bcast_S50000x32_S50000x32x1_0_1
      (select (cmpi .slt a2 (broadcastInDim S50000x32 ![] Cert.KernelIdeal.Facts₀.bcast_S_S50000x32 (constantI S_ 32 0#32)))
        (addi a2 (broadcastInDim S50000x32 ![] Cert.KernelIdeal.Facts₀.bcast_S_S50000x32 (constantI S_ 32 50000#32))) a2))

/-- The array the second window stages is the gathered array of the arguments as launched. -/
theorem V_gathered (c : Dev nD) :
    (V m c main_v7 : S50000x32x128.Idx → EReal) = gathered (m ((c : Thread nD τ).loc main_arg0)) (m ((c : Thread nD τ).loc main_arg2)) := by
  dsimp only [Gen.V, Gen.hostOps0]
  after_results
  rfl

/-! ## The index maps, decided over the 250 points -/

theorem idx_x : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_nb : ∀ t : Fin cfg0.N, win0_1.index t (0 : Fin 3) = t.val ∧ win0_1.index t (1 : Fin 3) = 0 ∧ win0_1.index t (2 : Fin 3) = 0 :=
  (by decide +kernel : ∀ t : Fin grid0.N, _)
theorem idx_w1 : ∀ t : Fin cfg0.N, win0_2.index t (0 : Fin 2) = 0 ∧ win0_2.index t (1 : Fin 2) = 0 :=
  (by decide +kernel : ∀ t : Fin grid0.N, _)
theorem idx_b1 : ∀ t : Fin cfg0.N, win0_3.index t (0 : Fin 1) = 0 :=
  (by decide +kernel : ∀ t : Fin grid0.N, _)
theorem idx_w2 : ∀ t : Fin cfg0.N, win0_4.index t (0 : Fin 2) = 0 ∧ win0_4.index t (1 : Fin 2) = 0 :=
  (by decide +kernel : ∀ t : Fin grid0.N, _)
theorem idx_b2 : ∀ t : Fin cfg0.N, win0_5.index t (0 : Fin 1) = 0 :=
  (by decide +kernel : ∀ t : Fin grid0.N, _)
theorem idx_u1 : ∀ t : Fin cfg0.N, win0_6.index t (0 : Fin 2) = 0 ∧ win0_6.index t (1 : Fin 2) = 0 :=
  (by decide +kernel : ∀ t : Fin grid0.N, _)
theorem idx_c1 : ∀ t : Fin cfg0.N, win0_7.index t (0 : Fin 1) = 0 :=
  (by decide +kernel : ∀ t : Fin grid0.N, _)
theorem idx_u2 : ∀ t : Fin cfg0.N, win0_8.index t (0 : Fin 2) = 0 ∧ win0_8.index t (1 : Fin 2) = 0 :=
  (by decide +kernel : ∀ t : Fin grid0.N, _)
theorem idx_c2 : ∀ t : Fin cfg0.N, win0_9.index t (0 : Fin 1) = 0 :=
  (by decide +kernel : ∀ t : Fin grid0.N, _)
theorem idx_out : ∀ t : Fin cfg0.N, win0_10.index t (0 : Fin 2) = t.val ∧ win0_10.index t (1 : Fin 2) = 0 :=
  (by decide +kernel : ∀ t : Fin grid0.N, _)

/-! ## One point -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The body's result at `y` is the whole arrays' interaction block at `i`, when `y` and `i` are in the same column,
    row `y 0` of the two loaded blocks is row `i 0` of the arrays, and the loaded weights are the arrays. -/
theorem point_eq (A : Vec Ideal S50000x32x64 .f32) (NB : Vec Ideal S50000x32x128 .bf16)
    (x0 : Vec Ideal S200x32x64 .f32) (x1 : Vec Ideal S200x32x128 .bf16)
    (w1 w1' : Vec Ideal S64x128 .f32) (b1 b1' : Vec Ideal S128 .f32) (w2 w2' : Vec Ideal S128x128 .f32) (b2 b2' : Vec Ideal S128 .f32)
    (u1 u1' : Vec Ideal S128x128 .f32) (c1 c1' : Vec Ideal S128 .f32) (u2 u2' : Vec Ideal S128x128 .f32) (c2 c2' : Vec Ideal S128 .f32)
    (y : S200x128.Idx) (i : S50000x128.Idx) (hcol : i 1 = y 1)
    (hx : ∀ (mm : Fin 32) (f : Fin 64), x0 (ix3 (y 0) mm f) = A (ix3 (i 0) mm f))
    (hnb : ∀ (mm : Fin 32) (h : Fin 128), x1 (ix3 (y 0) mm h) = NB (ix3 (i 0) mm h))
    (hw1 : w1' = w1) (hb1 : b1' = b1) (hw2 : w2' = w2) (hb2 : b2' = b2)
    (hu1 : u1' = u1) (hc1 : c1' = c1) (hu2 : u2' = u2) (hc2 : c2' = c2) :
    Gen.k0_pay1 (F := Ideal) (Gen.k0_pay2 x0 w1' b1' w2' b2' x1 u1' c1') u2' c2' y
      = rows (R := 50000) A NB w1 b1 w2 b2 u1 c1 u2 c2 i := by
  subst hw1 hb1 hw2 hb2 hu1 hc1 hu2 hc2
  rw [payload_eq]
  obtain ⟨p, j, rfl⟩ : ∃ (p : Fin 200) (j : Fin 128), y = ix2 p j := ⟨y 0, y 1, eq_ix2 y⟩
  obtain ⟨n, j', rfl⟩ : ∃ (n : Fin 50000) (j' : Fin 128), i = ix2 n j' := ⟨i 0, i 1, eq_ix2 i⟩
  have hj : j' = j := hcol
  subst hj
  rw [result_apply]
  exact rows_of_rows A NB x0 x1 w1' b1' w2' b2' u1' c1' u2' c2' p n j' hx hnb

/-! ## The array after the run -/

/-- The interaction block of the arrays as the launch finds them. -/
def G (c : Dev nD) : S50000x128.Idx → EReal :=
  rows (R := 50000) (V m c main_arg1) (V m c main_v7) (V m c main_arg3) (V m c main_arg4) (V m c main_arg5) (V m c main_arg6)
    (V m c main_arg7) (V m c main_arg8) (V m c main_arg9) (V m c main_arg10)

/-- … which is the interaction block of the arguments as launched, the gathered array computed from them. -/
theorem G_eq (c : Dev nD) :
    G m c = rows (R := 50000) (m ((c : Thread nD τ).loc main_arg1)) (gathered (m ((c : Thread nD τ).loc main_arg0)) (m ((c : Thread nD τ).loc main_arg2)))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10)) := by
  unfold G
  rw [V_gathered m c, V_main_arg1 m c, V_main_arg3 m c, V_main_arg4 m c, V_main_arg5 m c, V_main_arg6 m c, V_main_arg7 m c,
    V_main_arg8 m c, V_main_arg9 m c, V_main_arg10 m c]

/-- What point `t` writes back is block `t` of `G`. -/
theorem flushed_eq (c : Dev nD) (t : Fin cfg0.N) :
    (dats m 0 c).flushed 10 t = ((cfg0.win 10).blk t).view.read (Elt Ideal) (G m c) := by
  rw [Cert.KernelIdeal.Value.flushed10]
  unfold out0_10
  rw [View.canon_unit_zero hz2]
  simp only [View.ld_unit_zero (S := S200x32x64) hz3, View.ld_unit_zero (S := S200x32x128) hz3,
    View.ld_unit_zero (S := S64x128) hz2, View.ld_unit_zero (S := S128x128) hz2, View.ld_unit_zero (S := S128) hz1]
  obtain ⟨ex0, ex1, ex2⟩ := idx_x t
  obtain ⟨en0, en1, en2⟩ := idx_nb t
  obtain ⟨ew10, ew11⟩ := idx_w1 t
  have eb1 := idx_b1 t
  obtain ⟨ew20, ew21⟩ := idx_w2 t
  have eb2 := idx_b2 t
  obtain ⟨eu10, eu11⟩ := idx_u1 t
  have ec1 := idx_c1 t
  obtain ⟨eu20, eu21⟩ := idx_u2 t
  have ec2 := idx_c2 t
  obtain ⟨eo0, eo1⟩ := idx_out t
  funext y
  refine point_eq (V m c main_arg1) (V m c main_v7) (iblk m c 0 t) (iblk m c 1 t)
    (V m c main_arg3) (iblk m c 2 t) (V m c main_arg4) (iblk m c 3 t) (V m c main_arg5) (iblk m c 4 t) (V m c main_arg6) (iblk m c 5 t)
    (V m c main_arg7) (iblk m c 6 t) (V m c main_arg8) (iblk m c 7 t) (V m c main_arg9) (iblk m c 8 t) (V m c main_arg10) (iblk m c 9 t)
    y (((cfg0.win 10).blk t).view.emb y) ?_ ?_ ?_ ?_ ?_ ?_ ?_ ?_ ?_ ?_ ?_
  · apply Fin.ext
    show win0_10.index t (1 : Fin 2) * 128 + 1 * (y 1).val = (y 1).val
    rw [eo1]; omega
  · intro mm f
    show V m c main_arg1 (((cfg0.win 0).blk t).view.emb (ix3 (y 0) mm f)) = V m c main_arg1 (ix3 ((((cfg0.win 10).blk t).view.emb y) 0) mm f)
    refine congrArg (V m c main_arg1) (funext fun a => Fin.ext ?_)
    match a with
    | ⟨0, _⟩ => show win0_0.index t (0 : Fin 3) * 200 + 1 * (y 0).val = win0_10.index t (0 : Fin 2) * 200 + 1 * (y 0).val; rw [ex0, eo0]
    | ⟨1, _⟩ => show win0_0.index t (1 : Fin 3) * 32 + 1 * mm.val = mm.val; rw [ex1]; omega
    | ⟨2, _⟩ => show win0_0.index t (2 : Fin 3) * 64 + 1 * f.val = f.val; rw [ex2]; omega
  · intro mm h
    show V m c main_v7 (((cfg0.win 1).blk t).view.emb (ix3 (y 0) mm h)) = V m c main_v7 (ix3 ((((cfg0.win 10).blk t).view.emb y) 0) mm h)
    refine congrArg (V m c main_v7) (funext fun a => Fin.ext ?_)
    match a with
    | ⟨0, _⟩ => show win0_1.index t (0 : Fin 3) * 200 + 1 * (y 0).val = win0_10.index t (0 : Fin 2) * 200 + 1 * (y 0).val; rw [en0, eo0]
    | ⟨1, _⟩ => show win0_1.index t (1 : Fin 3) * 32 + 1 * mm.val = mm.val; rw [en1]; omega
    | ⟨2, _⟩ => show win0_1.index t (2 : Fin 3) * 128 + 1 * h.val = h.val; rw [en2]; omega
  · funext z
    show V m c main_arg3 (((cfg0.win 2).blk t).view.emb z) = V m c main_arg3 z
    refine congrArg (V m c main_arg3) (funext fun a => Fin.ext ?_)
    match a with
    | ⟨0, _⟩ => show win0_2.index t (0 : Fin 2) * 64 + 1 * (z 0).val = (z 0).val; rw [ew10]; omega
    | ⟨1, _⟩ => show win0_2.index t (1 : Fin 2) * 128 + 1 * (z 1).val = (z 1).val; rw [ew11]; omega
  · funext z
    show V m c main_arg4 (((cfg0.win 3).blk t).view.emb z) = V m c main_arg4 z
    refine congrArg (V m c main_arg4) (funext fun a => Fin.ext ?_)
    match a with
    | ⟨0, _⟩ => show win0_3.index t (0 : Fin 1) * 128 + 1 * (z 0).val = (z 0).val; rw [eb1]; omega
  · funext z
    show V m c main_arg5 (((cfg0.win 4).blk t).view.emb z) = V m c main_arg5 z
    refine congrArg (V m c main_arg5) (funext fun a => Fin.ext ?_)
    match a with
    | ⟨0, _⟩ => show win0_4.index t (0 : Fin 2) * 128 + 1 * (z 0).val = (z 0).val; rw [ew20]; omega
    | ⟨1, _⟩ => show win0_4.index t (1 : Fin 2) * 128 + 1 * (z 1).val = (z 1).val; rw [ew21]; omega
  · funext z
    show V m c main_arg6 (((cfg0.win 5).blk t).view.emb z) = V m c main_arg6 z
    refine congrArg (V m c main_arg6) (funext fun a => Fin.ext ?_)
    match a with
    | ⟨0, _⟩ => show win0_5.index t (0 : Fin 1) * 128 + 1 * (z 0).val = (z 0).val; rw [eb2]; omega
  · funext z
    show V m c main_arg7 (((cfg0.win 6).blk t).view.emb z) = V m c main_arg7 z
    refine congrArg (V m c main_arg7) (funext fun a => Fin.ext ?_)
    match a with
    | ⟨0, _⟩ => show win0_6.index t (0 : Fin 2) * 128 + 1 * (z 0).val = (z 0).val; rw [eu10]; omega
    | ⟨1, _⟩ => show win0_6.index t (1 : Fin 2) * 128 + 1 * (z 1).val = (z 1).val; rw [eu11]; omega
  · funext z
    show V m c main_arg8 (((cfg0.win 7).blk t).view.emb z) = V m c main_arg8 z
    refine congrArg (V m c main_arg8) (funext fun a => Fin.ext ?_)
    match a with
    | ⟨0, _⟩ => show win0_7.index t (0 : Fin 1) * 128 + 1 * (z 0).val = (z 0).val; rw [ec1]; omega
  · funext z
    show V m c main_arg9 (((cfg0.win 8).blk t).view.emb z) = V m c main_arg9 z
    refine congrArg (V m c main_arg9) (funext fun a => Fin.ext ?_)
    match a with
    | ⟨0, _⟩ => show win0_8.index t (0 : Fin 2) * 128 + 1 * (z 0).val = (z 0).val; rw [eu20]; omega
    | ⟨1, _⟩ => show win0_8.index t (1 : Fin 2) * 128 + 1 * (z 1).val = (z 1).val; rw [eu21]; omega
  · funext z
    show V m c main_arg10 (((cfg0.win 9).blk t).view.emb z) = V m c main_arg10 z
    refine congrArg (V m c main_arg10) (funext fun a => Fin.ext ?_)
    match a with
    | ⟨0, _⟩ => show win0_9.index t (0 : Fin 1) * 128 + 1 * (z 0).val = (z 0).val; rw [ec2]; omega

/-- An index of the result array is in point `t`'s block iff each coordinate is in the block's range on its axis. -/
theorem mem_blk (t : Fin cfg0.N) (i : S50000x128.Idx) :
    i ∈ ((cfg0.win 10).blk t).view.set ↔ ∀ a : Fin 2, win0_10.index t a * S200x128.size a ≤ (i a).val ∧ (i a).val < win0_10.index t a * S200x128.size a + S200x128.size a := by
  show i ∈ ((View.whole main_v8).slice (win0_10.rect t)).set ↔ _
  rw [View.set_slice_whole, Rect.mem_set_unit]
  exact Iff.rfl

/-- Row `i 0` of the result lies in the block of point `i 0 / 200`: the blocks cover the array. -/
theorem cover (i : S50000x128.Idx) : ∃ t : Fin cfg0.N, (cfg0.win 10).flush t = true ∧ i ∈ ((cfg0.win 10).blk t).view.set := by
  have hi0 : (i 0).val < 50000 := idx2_lt0 i
  have hi1 : (i 1).val < 128 := idx2_lt1 i
  have hN : cfg0.N = 250 := N_0
  have hlt : (i 0).val / 200 < cfg0.N := by rw [hN]; omega
  refine ⟨⟨(i 0).val / 200, hlt⟩, flush0_10 _, ?_⟩
  obtain ⟨e0, e1⟩ := idx_out ⟨(i 0).val / 200, hlt⟩
  rw [mem_blk]
  intro a
  match a with
  | ⟨0, _⟩ =>
    show win0_10.index ⟨(i 0).val / 200, hlt⟩ (0 : Fin 2) * 200 ≤ (i 0).val ∧ (i 0).val < win0_10.index ⟨(i 0).val / 200, hlt⟩ (0 : Fin 2) * 200 + 200
    rw [e0]; show (i 0).val / 200 * 200 ≤ (i 0).val ∧ (i 0).val < (i 0).val / 200 * 200 + 200; omega
  | ⟨1, _⟩ =>
    show win0_10.index ⟨(i 0).val / 200, hlt⟩ (1 : Fin 2) * 128 ≤ (i 1).val ∧ (i 1).val < win0_10.index ⟨(i 0).val / 200, hlt⟩ (1 : Fin 2) * 128 + 128
    rw [e1]; omega

/-- The result array after the run is the interaction block of the arguments, the gathered array computed from them. -/
theorem final (c : Dev nD) :
    (dats m 0 c).arrAt 10 cfg0.N = rows (R := 50000) (m ((c : Thread nD τ).loc main_arg1)) (gathered (m ((c : Thread nD τ).loc main_arg0)) (m ((c : Thread nD τ).loc main_arg2)))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10)) :=
  ((dats m 0 c).arrAt_eq_of_cover 10 (G m c) (fun t _ => flushed_eq m c t) cover).trans (G_eq m c)

end Cert.Interaction.Kernel

end
-- ==== Proof.RefRows.lean ====
/-
  What the reference computes, read at an index, over the extended reals.

  The reference works on the whole arrays: it gathers a representation row for each of the 50000 × 32 neighbour
  slots, runs the filter network on the edge features as two contractions over the last axis with a bias and a
  silu between (the silu spelt out as z · (1 / (1 + exp (−z)))), multiplies by the gathered rows, sums over the 32
  neighbours from zero, and runs the update network on the 50000 messages. Each stage is read at an index from the
  stage before it; the quotient 1 / (1 + exp (−z)) with the float one read as the real one is the logistic
  function by its definition, and zero plus a sum is the sum. So the reference's result is
  `Cert.Interaction.rows` of the edge-feature array and of the gathered array, whatever the gather read: the
  gathered array enters only as the array it is.
-/
import proofs.«155892_j30107720745193_2_alg».proof.Proof.Gen.ReferenceIdeal.Read
import proofs.«155892_j30107720745193_2_alg».proof.Proof.Node
import Idealize.ShloMosaic.Lib.IdealHost

set_option maxRecDepth 16384

noncomputable section

open scoped BigOperators

namespace Cert.Interaction.Reference

open Cert.ReferenceIdeal Cert.ReferenceIdeal.Read Idealize.ShloMosaic Idealize.ShloMosaic.ValueIdx

variable (x0 : (⟨S50000x128, .f32⟩ : BufTy).Contents (Elt Ideal)) (x1 : (⟨S50000x32x64, .f32⟩ : BufTy).Contents (Elt Ideal))
  (x2 : (⟨S50000x32, .i32⟩ : BufTy).Contents (Elt Ideal)) (x3 : (⟨S64x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x128, .f32⟩ : BufTy).Contents (Elt Ideal)) (x10 : (⟨S128, .f32⟩ : BufTy).Contents (Elt Ideal))

/-- z · (1 / (1 + exp (−z))), with the float one read as the real one, is silu z. -/
theorem silu_spelt (z : EReal) :
    z * Ideal.div (Ideal.ofBits .f32 0x3F800000#32) (Ideal.ofBits .f32 0x3F800000#32 + Ideal.exp (-z)) = silu z := by
  rw [Ideal.ofBits_one_f32]
  rfl

/-- The filter network's first layer at neighbour slot (n, m), column k. -/
theorem hidden_apply (n : Fin 50000) (mm : Fin 32) (k : Fin 128) :
    val_main_v10 (F := Ideal) x1 x3 x4 (ix3 n mm k) = affine (fun f => x1 (ix3 n mm f)) x3 x4 k := by
  rw [val_main_v10_apply, val_main_v7_apply, val_main_v9_apply, val_main_v8_apply]
  have e1 : ∀ f : Fin 64, lidx_main_v7 (ix3 n mm k) f = ix3 n mm f := fun f => funext fun a => Fin.ext (by
    match a with | ⟨0, _⟩ => rfl | ⟨1, _⟩ => rfl | ⟨2, _⟩ => rfl)
  have e2 : ∀ f : Fin 64, ridx_main_v7 (ix3 n mm k) f = ix2 f k := fun f => funext fun a => Fin.ext (by
    match a with | ⟨0, _⟩ => rfl | ⟨1, _⟩ => rfl)
  have e3 : idx_main_v8 (idx_main_v9 (ix3 n mm k)) = ix1 k := funext fun a => Fin.ext (by
    match a with | ⟨0, _⟩ => rfl)
  simp only [e1, e2, e3]
  rfl

/-- The silu of the first layer, as the reference spells it. -/
theorem act_apply (n : Fin 50000) (mm : Fin 32) (k : Fin 128) :
    val_main_v11 (F := Ideal) x1 x3 x4 (ix3 n mm k) = silu (affine (fun f => x1 (ix3 n mm f)) x3 x4 k) := by
  rw [val_main_v11_apply, val_main_call0_v5_apply, val_main_call0_v4_apply, val_main_call0_cst_0_apply,
    val_main_call0_v3_apply, val_main_call0_v2_apply, val_main_call0_cst_apply, val_main_call0_v1_apply,
    val_main_call0_v0_apply, hidden_apply]
  exact silu_spelt _

/-- The filter of neighbour slot (n, m) at h. -/
theorem filt_apply (n : Fin 50000) (mm : Fin 32) (h : Fin 128) :
    val_main_v15 (F := Ideal) x1 x3 x4 x5 x6 (ix3 n mm h) = filter (fun f => x1 (ix3 n mm f)) x3 x4 x5 x6 h := by
  rw [val_main_v15_apply, val_main_v12_apply, val_main_v14_apply, val_main_v13_apply]
  have e1 : ∀ k : Fin 128, lidx_main_v12 (ix3 n mm h) k = ix3 n mm k := fun k => funext fun a => Fin.ext (by
    match a with | ⟨0, _⟩ => rfl | ⟨1, _⟩ => rfl | ⟨2, _⟩ => rfl)
  have e2 : ∀ k : Fin 128, ridx_main_v12 (ix3 n mm h) k = ix2 k h := fun k => funext fun a => Fin.ext (by
    match a with | ⟨0, _⟩ => rfl | ⟨1, _⟩ => rfl)
  have e3 : idx_main_v13 (idx_main_v14 (ix3 n mm h)) = ix1 h := funext fun a => Fin.ext (by
    match a with | ⟨0, _⟩ => rfl)
  simp only [e1, e2, e3, act_apply]
  rfl

/-- Node n's message at h: the gathered array enters as it is. -/
theorem msg_apply (n : Fin 50000) (h : Fin 128) :
    val_main_v17 (F := Ideal) x0 x1 x2 x3 x4 x5 x6 (ix2 n h)
      = message (fun mm f => x1 (ix3 n mm f)) (fun mm h => val_main_v6 (F := Ideal) x0 x2 (ix3 n mm h)) x3 x4 x5 x6 h := by
  rw [val_main_v17_apply, val_main_cst_apply]
  have e : ∀ mm : Fin 32, idx_main_v17 (ix2 n h) mm = ix3 n mm h := fun mm => funext fun a => Fin.ext (by
    match a with | ⟨0, _⟩ => rfl | ⟨1, _⟩ => rfl | ⟨2, _⟩ => rfl)
  simp only [e, val_main_v16_apply, filt_apply]
  show Ideal.ofBits .f32 0x00000000#32 + _ = _
  rw [Ideal.ofBits_zero_f32, zero_add]
  rfl

/-- The update network's first layer at (n, k). -/
theorem upd_apply (n : Fin 50000) (k : Fin 128) :
    val_main_v21 (F := Ideal) x0 x1 x2 x3 x4 x5 x6 x7 x8 (ix2 n k)
      = affine (message (fun mm f => x1 (ix3 n mm f)) (fun mm h => val_main_v6 (F := Ideal) x0 x2 (ix3 n mm h)) x3 x4 x5 x6) x7 x8 k := by
  rw [val_main_v21_apply, val_main_v18_apply, val_main_v20_apply, val_main_v19_apply]
  have e1 : ∀ h : Fin 128, lidx_main_v18 (ix2 n k) h = ix2 n h := fun h => funext fun a => Fin.ext (by
    match a with | ⟨0, _⟩ => rfl | ⟨1, _⟩ => rfl)
  have e2 : ∀ h : Fin 128, ridx_main_v18 (ix2 n k) h = ix2 h k := fun h => funext fun a => Fin.ext (by
    match a with | ⟨0, _⟩ => rfl | ⟨1, _⟩ => rfl)
  have e3 : idx_main_v19 (idx_main_v20 (ix2 n k)) = ix1 k := funext fun a => Fin.ext (by
    match a with | ⟨0, _⟩ => rfl)
  simp only [e1, e2, e3, msg_apply]
  rfl

/-- The silu of the update network's first layer, as the reference spells it. -/
theorem act2_apply (n : Fin 50000) (k : Fin 128) :
    val_main_v22 (F := Ideal) x0 x1 x2 x3 x4 x5 x6 x7 x8 (ix2 n k)
      = silu (affine (message (fun mm f => x1 (ix3 n mm f)) (fun mm h => val_main_v6 (F := Ideal) x0 x2 (ix3 n mm h)) x3 x4 x5 x6) x7 x8 k) := by
  rw [val_main_v22_apply, val_main_call1_v5_apply, val_main_call1_v4_apply, val_main_call1_cst_0_apply,
    val_main_call1_v3_apply, val_main_call1_v2_apply, val_main_call1_cst_apply, val_main_call1_v1_apply,
    val_main_call1_v0_apply, upd_apply]
  exact silu_spelt _

/-- The reference's result is the interaction block of the edge features and the gathered array, row by row. -/
theorem result_eq :
    val_main_v26 (F := Ideal) x0 x1 x2 x3 x4 x5 x6 x7 x8 x9 x10
      = rows (R := 50000) x1 (val_main_v6 (F := Ideal) x0 x2) x3 x4 x5 x6 x7 x8 x9 x10 := by
  funext i
  obtain ⟨n, j, rfl⟩ : ∃ (n : Fin 50000) (j : Fin 128), i = ix2 n j := ⟨i 0, i 1, eq_ix2 i⟩
  rw [val_main_v26_apply, val_main_v23_apply, val_main_v25_apply, val_main_v24_apply]
  have e1 : ∀ k : Fin 128, lidx_main_v23 (ix2 n j) k = ix2 n k := fun k => funext fun a => Fin.ext (by
    match a with | ⟨0, _⟩ => rfl | ⟨1, _⟩ => rfl)
  have e2 : ∀ k : Fin 128, ridx_main_v23 (ix2 n j) k = ix2 k j := fun k => funext fun a => Fin.ext (by
    match a with | ⟨0, _⟩ => rfl | ⟨1, _⟩ => rfl)
  have e3 : idx_main_v24 (idx_main_v25 (ix2 n j)) = ix1 j := funext fun a => Fin.ext (by
    match a with | ⟨0, _⟩ => rfl)
  simp only [e1, e2, e3, act2_apply]
  rfl

end Cert.Interaction.Reference

end
-- ==== Proof.lean ====
/-
  A fused interaction block of a continuous-filter graph network against its plain reference, over the extended reals.

  Both programs take a representation array (50000 nodes × 128), edge features (50000 × 32 neighbours × 64),
  neighbour indices (50000 × 32) and the weights and biases of two two-layer networks. Both first gather, for each
  neighbour slot, the representation row of the indexed node — negative indices wrapped by 50000, the same gather
  with the same index arithmetic; the kernel passes the representations through a change of float format first,
  which is the identity on extended reals, so the two gathered arrays are one function of the arguments
  (`gathered_eq`). From there on each program computes, for every node n and output j, the node's output
  `Cert.Interaction.node` from row n of the edge features and row n of the gathered array:

    * the reference on the whole arrays, stage by stage, its silu spelt z · (1 / (1 + exp (−z))), which is
      z · logistic z by the logistic function's definition (the module on the reference);
    * the kernel 200 nodes at a time: the body flattens the 200 × 32 neighbour slots into 6400 rows, takes matrix
      products into a zero accumulator where the reference contracts the last axis, and sums over the middle axis
      where the reference reduces it; at an index these are the same finite sums (the module on the body), and
      the 250 blocks of 200 rows tile the 50000 rows (the module on the array).

  No step rearranges a sum or moves a factor across one, so the proof never uses that the inputs are finite. The
  idealized kernel is the kernel's own text read over the extended reals, with no operation replaced, so the
  preservation claim has no conjunct; the three frames are the generated ones, the reference's being its generated
  run with the result dropped.
-/
import proofs.«155892_j30107720745193_2_alg».proof.Defs
import proofs.«155892_j30107720745193_2_alg».proof.Proof.Gen.Kernel
import proofs.«155892_j30107720745193_2_alg».proof.Proof.Gen.Kernel.Skeleton
import proofs.«155892_j30107720745193_2_alg».proof.Proof.Gen.Kernel.Launch
import proofs.«155892_j30107720745193_2_alg».proof.Proof.Gen.Kernel.Points
import proofs.«155892_j30107720745193_2_alg».proof.Proof.Gen.Kernel.Frame
import proofs.«155892_j30107720745193_2_alg».proof.Proof.Gen.KernelIdeal
import proofs.«155892_j30107720745193_2_alg».proof.Proof.Gen.KernelIdeal.Skeleton
import proofs.«155892_j30107720745193_2_alg».proof.Proof.Gen.KernelIdeal.Launch
import proofs.«155892_j30107720745193_2_alg».proof.Proof.Gen.KernelIdeal.Points
import proofs.«155892_j30107720745193_2_alg».proof.Proof.Gen.KernelIdeal.Frame
import proofs.«155892_j30107720745193_2_alg».proof.Proof.Gen.ReferenceIdeal
import proofs.«155892_j30107720745193_2_alg».proof.Proof.Gen.Pre_finite_inputs
import proofs.«155892_j30107720745193_2_alg».proof.Proof.Gen.KernelIdeal.Value
import proofs.«155892_j30107720745193_2_alg».proof.Proof.Gen.ReferenceIdeal.Run
import proofs.«155892_j30107720745193_2_alg».proof.Proof.Gen.ReferenceIdeal.Read
import proofs.«155892_j30107720745193_2_alg».proof.Proof.KernelArray
import proofs.«155892_j30107720745193_2_alg».proof.Proof.RefRows
import Idealize.ShloMosaic.Adequacy
import Idealize.ShloMosaic.Init

set_option maxRecDepth 16384

noncomputable section

namespace Cert.Proof

open Idealize.ShloMosaic Idealize.ShloMosaic.TcCoe Idealize.SL.Sem Cert.Interaction

/-- The gathered array is one function of the representations and the indices in both programs: the same gather at
    the same wrapped indices, the kernel's change of float format before it being the identity. -/
theorem gathered_eq (a0 : Vec Ideal Cert.KernelIdeal.S50000x128 .f32) (a2 : Vec Ideal Cert.KernelIdeal.S50000x32 .i32) :
    (Kernel.gathered a0 a2 : Cert.KernelIdeal.S50000x32x128.Idx → EReal) = Cert.ReferenceIdeal.Read.val_main_v6 (F := Ideal) a0 a2 := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- No operation of the kernel was replaced in its idealization: the claim has no conjunct. -/
theorem preserves : Cert.preserves_Kernel_KernelIdeal := trivial

/-- Both result arrays end at the interaction block of the edge features and the gathered array: the kernel's by its
    blocks, the reference's stage by stage, from arguments that agree. -/
theorem algebraic : Cert.algebraic_KernelIdeal_ReferenceIdeal := by
  intro m ρ m' ρ' _ hagree
  refine ⟨fun c => rows (R := 50000) (m ((c.tc : Thread Cert.KernelIdeal.nD Cert.KernelIdeal.τ).loc Cert.KernelIdeal.main_arg1)) (Kernel.gathered (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Kernel.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v26_eq, Reference.result_eq, h0, h1, h2, h3, h4, h5, h6, h7, h8, h9, h10]
    exact congrArg (fun g => rows (R := 50000) (m ((c.tc : Thread Cert.KernelIdeal.nD Cert.KernelIdeal.τ).loc Cert.KernelIdeal.main_arg1)) g
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))
      (gathered_eq (m ((c.tc : Thread Cert.KernelIdeal.nD Cert.KernelIdeal.τ).loc Cert.KernelIdeal.main_arg0)) (m ((c.tc : Thread Cert.KernelIdeal.nD Cert.KernelIdeal.τ).loc Cert.KernelIdeal.main_arg2))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
